-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S288x262144 : Shape := ⟨2, ![288, 262144]⟩
abbrev S256x32 : Shape := ⟨2, ![256, 32]⟩
abbrev S32 : Shape := ⟨1, ![32]⟩
abbrev S_ : Shape := ⟨0, ![]⟩

class Facts : Prop where
  bcast_S_S288x262144 : S_.BroadcastsInDim S288x262144 (![] : Fin 0 → Fin S288x262144.rank)
  reducesTo_S288x262144_S_d0_1 : S288x262144.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S288x262144 .f32) (main_arg1 : FVec F S256x32 .f32) (main_arg2 : FVec F S32 .f32) : IVec S_ 1 :=
  let main_v0 : FVec F S288x262144 .f32 := Host.absf main_arg0
  let main_cst : FVec F S_ .f32 := constant S_ .f32 0x7F800000#32
  let main_v1 : FVec F S288x262144 .f32 := broadcastInDim S288x262144 ![] bcast_S_S288x262144 main_cst
  let main_v2 : IVec S288x262144 1 := cmpf .olt main_v0 main_v1
  let main_c : IVec S_ 1 := constantI S_ 1 1#1
  let main_v3 : IVec S_ 1 := (fun x v => Host.reduce IntOp.andi x v reducesTo_S288x262144_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S288x262144 : Shape := ⟨2, ![288, 262144]⟩
abbrev S256x32 : Shape := ⟨2, ![256, 32]⟩
abbrev S32 : Shape := ⟨1, ![32]⟩
abbrev S32x256 : Shape := ⟨2, ![32, 256]⟩
abbrev S32x1 : Shape := ⟨2, ![32, 1]⟩
abbrev S288x4096 : Shape := ⟨2, ![288, 4096]⟩
abbrev S256x4096 : Shape := ⟨2, ![256, 4096]⟩
abbrev S32x4096 : Shape := ⟨2, ![32, 4096]⟩
abbrev S4096 : Shape := ⟨1, ![4096]⟩
abbrev S1x4096 : Shape := ⟨2, ![1, 4096]⟩

abbrev nBuf : Space → Nat
  | .hbm => 8
  | .vmem => 7
  | .smem => 0
  | _ => 0

abbrev bufTy : (tb : Table) → Fin (tcTables nBuf tb) → BufTy
  | .hbm, ⟨0, _⟩ => ⟨S288x262144, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256x32, .bf16⟩
  | .hbm, ⟨5, _⟩ => ⟨S32x256, .bf16⟩
  | .hbm, ⟨6, _⟩ => ⟨S32x1, .f32⟩
  | .hbm, ⟨7, _⟩ => ⟨S288x262144, .f32⟩
  | .local _ .vmem, ⟨0, _⟩ => ⟨S288x4096, .f32⟩
  | .local _ .vmem, ⟨1, _⟩ => ⟨S288x4096, .f32⟩
  | .local _ .vmem, ⟨2, _⟩ => ⟨S256x32, .bf16⟩
  | .local _ .vmem, ⟨3, _⟩ => ⟨S32x256, .bf16⟩
  | .local _ .vmem, ⟨4, _⟩ => ⟨S32x1, .f32⟩
  | .local _ .vmem, ⟨5, _⟩ => ⟨S288x4096, .f32⟩
  | .local _ .vmem, ⟨6, _⟩ => ⟨S288x4096, .f32⟩
  | _, _ => ⟨S288x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x32_S32x256_1_0 : S256x32.Transposes [1, 0] S32x256
  bitsLt_bf16_f32 : FTy.bits .bf16 < FTy.bits .f32
  shapeCasts_S32_S32x1 : S32.ShapeCasts S32x1
  inb_S288x4096_S256x4096_0_0 : ∀ a, (![0, 0] : Fin 2 → Nat) a + S256x4096.size a ≤ S288x4096.size a
  h_S256x4096 : 0 < S256x4096.numel
  inb_S288x4096_S32x4096_256_0 : ∀ a, (![256, 0] : Fin 2 → Nat) a + S32x4096.size a ≤ S288x4096.size a
  h_S32x4096 : 0 < S32x4096.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x4096_S4096 : S32x4096.Reduces [0] S4096
  shapeCasts_S4096_S1x4096 : S4096.ShapeCasts S1x4096
  broadcasts_S32x1_S32x4096 : S32x1.Broadcasts S32x4096
  broadcasts_S1x4096_S256x4096 : S1x4096.Broadcasts S256x4096
  dot_S32x256_S256x4096_S32x4096_1_0_0_1_n_n_wf : DotDims.WF S32x256 S256x4096 S32x4096 [1] [0] [0] [1] [] []
  dot_S256x32_S32x4096_S256x4096_1_0_0_1_n_n_wf : DotDims.WF S256x32 S32x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x4096.size a ≤ S288x262144.size a
  hwx0_0 : ∀ i : grid0.Coords, EltTy.bits .f32 = 32 ∨ (Rect.block (s := S288x262144) S288x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .bf16 = 32 ∨ (Rect.block (s := S256x32) S256x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S288x4096.size a ≤ S288x262144.size a
  hwx0_4 : ∀ i : grid0.Coords, EltTy.bits .f32 = 32 ∨ (Rect.block (s := S288x262144) S288x4096.size (cc0_transform_4 i) (hinb0_4 i)).WholeWords (EltTy.packing .f32)

variable [Facts₀]

def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf

abbrev win0_0 : Pipeline.Window sig grid0 :=
  Pipeline.Window.ofSpec (Memref.whole main_arg0) S288x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S288x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S288x262144 : Shape := ⟨2, ![288, 262144]⟩
abbrev S256x32 : Shape := ⟨2, ![256, 32]⟩
abbrev S32 : Shape := ⟨1, ![32]⟩
abbrev S256x262144 : Shape := ⟨2, ![256, 262144]⟩
abbrev S32x262144 : Shape := ⟨2, ![32, 262144]⟩
abbrev S32x256 : Shape := ⟨2, ![32, 256]⟩
abbrev S_ : Shape := ⟨0, ![]⟩
abbrev S262144 : Shape := ⟨1, ![262144]⟩
abbrev S1x262144 : Shape := ⟨2, ![1, 262144]⟩
abbrev S1x32 : Shape := ⟨2, ![1, 32]⟩

abbrev nBuf : Space → Nat
  | .hbm => 21
  | .vmem => 0
  | .smem => 0
  | _ => 0

abbrev bufTy : (tb : Table) → Fin (tcTables nBuf tb) → BufTy
  | .hbm, ⟨0, _⟩ => ⟨S288x262144, .f32⟩
  | .hbm, ⟨1, _⟩ => ⟨S256x32, .f32⟩
  | .hbm, ⟨2, _⟩ => ⟨S32, .f32⟩
  | .hbm, ⟨3, _⟩ => ⟨S256x262144, .f32⟩
  | .hbm, ⟨4, _⟩ => ⟨S32x262144, .f32⟩
  | .hbm, ⟨5, _⟩ => ⟨S32x256, .f32⟩
  | .hbm, ⟨6, _⟩ => ⟨S32x262144, .f32⟩
  | .hbm, ⟨7, _⟩ => ⟨S_, .f32⟩
  | .hbm, ⟨8, _⟩ => ⟨S262144, .f32⟩
  | .hbm, ⟨9, _⟩ => ⟨S1x262144, .f32⟩
  | .hbm, ⟨10, _⟩ => ⟨S256x262144, .f32⟩
  | .hbm, ⟨11, _⟩ => ⟨S256x262144, .f32⟩
  | .hbm, ⟨12, _⟩ => ⟨S32x262144, .f32⟩
  | .hbm, ⟨13, _⟩ => ⟨S256x262144, .f32⟩
  | .hbm, ⟨14, _⟩ => ⟨S256x262144, .f32⟩
  | .hbm, ⟨15, _⟩ => ⟨S1x32, .f32⟩
  | .hbm, ⟨16, _⟩ => ⟨S256x32, .f32⟩
  | .hbm, ⟨17, _⟩ => ⟨S256x32, .f32⟩
  | .hbm, ⟨18, _⟩ => ⟨S256x262144, .f32⟩
  | .hbm, ⟨19, _⟩ => ⟨S256x262144, .f32⟩
  | .hbm, ⟨20, _⟩ => ⟨S288x262144, .f32⟩
  | _, _ => ⟨S288x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v18 : Ref sig .tc := ⟨.hbm, 20, rfl⟩

abbrev nD : Nat := 1
abbrev τ : Topo := Topo.v7x

variable {F : FTy → Type} [FloatOps F]

class Facts₀ : Prop where
  slices_S288x262144_S256x262144_0_0 : S288x262144.Slices ![0, 0] S256x262144
  slices_S288x262144_S32x262144_256_0 : S288x262144.Slices ![256, 0] S32x262144
  transposes_S256x32_S32x256_1_0 : S256x32.Transposes [1, 0] S32x256
  reducesTo_S32x262144_S262144_d0 : S32x262144.ReducesTo [0] S262144
  h_S_ : 0 < S_.numel
  bcast_S262144_S1x262144_1 : S262144.BroadcastsInDim S1x262144 (![1] : Fin 1 → Fin S1x262144.rank)
  bcast_S1x262144_S256x262144_0_1 : S1x262144.BroadcastsInDim S256x262144 (![0, 1] : Fin 2 → Fin S256x262144.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  concatenates_S256x262144_S32x262144_S288x262144_d0 : Shape.Concatenates [S256x262144, S32x262144] S288x262144 0
  dot_S32x256_S256x262144_S32x262144_1_0_0_1_n_n_wf : DotDims.WF S32x256 S256x262144 S32x262144 [1] [0] [0] [1] [] []
  dot_S256x32_S32x262144_S256x262144_1_0_0_1_n_n_wf : DotDims.WF S256x32 S32x262144 S256x262144 [1] [0] [0] [1] [] []

variable [Facts₀]

def dot_S32x256_S256x262144_S32x262144_1_0_0_1_n_n : DotDims S32x256 S256x262144 S32x262144 where
  lhsContracting := [1]
  rhsContracting := [0]
  lhsNonContracting := [0]
  rhsNonContracting := [1]
  lhsBatch := []
  rhsBatch := []
  wf := dot_S32x256_S256x262144_S32x262144_1_0_0_1_n_n_wf
def dot_S256x32_S32x262144_S256x262144_1_0_0_1_n_n : DotDims S256x32 S32x262144 S256x262144 where
  lhsContracting := [1]
  rhsContracting := [0]
  lhsNonContracting := [0]
  rhsNonContracting := [1]
  lhsBatch := []
  rhsBatch := []
  wf := dot_S256x32_S32x262144_S256x262144_1_0_0_1_n_n_wf

class Facts : Prop extends Facts₀ where

variable [Facts]
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payload.lean ====
/-
  The body's one computed store, read at an index of the block.

  With `z` the 256×4096 feature block, `π` the 32×4096 weight block, `u` the 256×32 matrix, `ut` its 32×256 transpose as
  the body is handed it, and `a` the 32×1 column, the stored value at (p, q) is

      z(p,q) · Σ_k π(k,q)  +  Σ_k u(p,k) · ((a(k,0) − Σ_d ut(k,d) · z(d,q)) · π(k,q)).

  On the extended reals a change of float format is the identity, a product into a zero accumulator is the plain sum
  over the contracted axis, and a lane sum from zero is the plain sum over the dropped axis; the layout operations
  (the column of `a` spread along the lanes, the row of column sums spread along the rows) only re-index.
-/
import proofs.«121301_j65944927863381_2_alg».proof.Proof.Gen.KernelIdeal.Skeleton
import proofs.«121301_j65944927863381_2_alg».proof.Proof.LibPlainDot
import proofs.«121301_j65944927863381_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.Lib.PlainDot (Reads)

/-- The 32×256 by 256×4096 product reads its operands at (row, k) and (k, column). -/
theorem reads_utz : Reads (R := 32) (K := 256) (C := 4096) dot_S32x256_S256x4096_S32x4096_1_0_0_1_n_n where
  rank := rfl
  size := rfl
  lhs0 i q := by
    unfold DotDims.lhsIdx
    rw [dif_neg (show ¬(0 : Fin S32x256.rank) ∈ dot_S32x256_S256x4096_S32x4096_1_0_0_1_n_n.lhsBatch by decide),
      dif_pos (show (0 : Fin S32x256.rank) ∈ dot_S32x256_S256x4096_S32x4096_1_0_0_1_n_n.lhsNonContracting by decide)]
    rfl
  lhs1 i q := dot_S32x256_S256x4096_S32x4096_1_0_0_1_n_n.lhsIdx_val_of_single rfl i q
  rhs0 i q := dot_S32x256_S256x4096_S32x4096_1_0_0_1_n_n.rhsIdx_val_of_single rfl i q
  rhs1 i q := by
    unfold DotDims.rhsIdx
    rw [dif_neg (show ¬(1 : Fin S256x4096.rank) ∈ dot_S32x256_S256x4096_S32x4096_1_0_0_1_n_n.rhsBatch by decide),
      dif_pos (show (1 : Fin S256x4096.rank) ∈ dot_S32x256_S256x4096_S32x4096_1_0_0_1_n_n.rhsNonContracting by decide)]
    rfl

/-- The 256×32 by 32×4096 product reads its operands at (row, k) and (k, column). -/
theorem reads_umix : Reads (R := 256) (K := 32) (C := 4096) dot_S256x32_S32x4096_S256x4096_1_0_0_1_n_n where
  rank := rfl
  size := rfl
  lhs0 i q := by
    unfold DotDims.lhsIdx
    rw [dif_neg (show ¬(0 : Fin S256x32.rank) ∈ dot_S256x32_S32x4096_S256x4096_1_0_0_1_n_n.lhsBatch by decide),
      dif_pos (show (0 : Fin S256x32.rank) ∈ dot_S256x32_S32x4096_S256x4096_1_0_0_1_n_n.lhsNonContracting by decide)]
    rfl
  lhs1 i q := dot_S256x32_S32x4096_S256x4096_1_0_0_1_n_n.lhsIdx_val_of_single rfl i q
  rhs0 i q := dot_S256x32_S32x4096_S256x4096_1_0_0_1_n_n.rhsIdx_val_of_single rfl i q
  rhs1 i q := by
    unfold DotDims.rhsIdx
    rw [dif_neg (show ¬(1 : Fin S32x4096.rank) ∈ dot_S256x32_S32x4096_S256x4096_1_0_0_1_n_n.rhsBatch by decide),
      dif_pos (show (1 : Fin S32x4096.rank) ∈ dot_S256x32_S32x4096_S256x4096_1_0_0_1_n_n.rhsNonContracting by decide)]
    rfl

/-- The row of column sums of the weight block, spread over the 256 rows: at (p, q) it is Σ_k π(k, q). -/
theorem colsum_apply (v1 : FVec Ideal S32x4096 .f32) (hr : S32x4096.Reduces [0] S4096)
    (hacc : (0x00000000#32 : BitVec 32) = FKind.add.neutral .f32 (.inl rfl))
    (hc : S4096.ShapeCasts S1x4096) (hb : S1x4096.Broadcasts S256x4096) (p : Fin 256) (q : Fin 4096) :
    broadcastTo S256x4096 (shapeCast S1x4096 (multiReduction .add [0] S4096 v1 0x00000000#32 hr (.inl rfl) hacc) hc) hb (ix2 p q)
      = ∑ k : Fin 32, v1 (ix2 k q) := by
  refine (broadcastTo_1b_ab_apply _ hb p q).trans ?_
  refine (shapeCast_a_1a_apply _ hc (0 : Fin 1) q).trans ?_
  refine (Ideal.multiReduction_add_single v1 0x00000000#32 hr (.inl rfl) hacc (ix1 q)).trans ?_
  exact Finset.sum_congr rfl fun k _ => congrArg v1 (funext fun c => Fin.ext (by fin_cases c <;> rfl))

/-- The stored value at (p, q). -/
theorem pay_apply (v0 : Vec Ideal S256x4096 .f32) (v1 : Vec Ideal S32x4096 .f32) (v2 : Vec Ideal S256x32 .bf16)
    (v4 : Vec Ideal S32x256 .bf16) (v6 : Vec Ideal S32x1 .f32) (p : Fin 256) (q : Fin 4096) :
    k0_pay1 (F := Ideal) v0 v1 v2 v4 v6 (ix2 p q)
      = v0 (ix2 p q) * (∑ k : Fin 32, v1 (ix2 k q))
        + ∑ k : Fin 32, v2 (ix2 p k)
            * ((v6 (ix2 k (0 : Fin 1)) - ∑ d : Fin 256, v4 (ix2 k d) * v0 (ix2 d q)) * v1 (ix2 k q)) := by
  unfold k0_pay1
  simp only [shapeCast_self]
  refine congrArg₂ (· + ·) (congrArg (v0 (ix2 p q) * ·) (colsum_apply v1 _ _ _ _ p q)) ?_
  refine (Cert.Lib.PlainDot.matmul_zero_apply reads_umix none _ _ p q).trans ?_
  refine Finset.sum_congr rfl fun k _ => congrArg (v2 (ix2 p k) * ·) ?_
  refine congrArg (· * v1 (ix2 k q)) ?_
  refine congrArg₂ (· - ·) (Cert.ColumnLayout.broadcastTo_a1_ab_apply v6 _ k q) ?_
  exact Cert.Lib.PlainDot.matmul_zero_apply reads_utz none _ _ k q

end Cert.KernelIdeal.Body

end
-- ==== Proof.LibRealSum.lean ====
/-
  A real factor distributes over a finite sum of products of reals, on the extended reals.

  On the extended reals multiplication does not distribute over addition in general: with `s = ⊤`, `a = 2`, `b = -1`
  the product `s * (a + b)` is `⊤` while `s * a + s * b` is `⊤ + ⊥ = ⊥`. It does when every quantity is a real
  number: then both sides are the coercion of one real, and the law is the reals' own. The lemmas below state this for
  a weighted sum `∑ i, x i * w i` scaled by a factor `s`, with a zero summand in front as a sum with an initial
  value carries it.
-/
import Mathlib.Data.EReal.Operations
import Mathlib.Algebra.BigOperators.Ring.Finset

open scoped BigOperators

namespace Cert.RealSum

/-- An extended real that is the coercion of a real. -/
def IsReal (v : EReal) : Prop := ∃ r : ℝ, v = (r : EReal)

theorem isReal_coe (r : ℝ) : IsReal (r : EReal) := ⟨r, rfl⟩

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves inside a finite weighted sum of reals: `s * (0 + ∑ i, x i * w i) = 0 + ∑ i, (s * x i) * w i`. -/
theorem mul_zero_add_sum {ι : Type} [Fintype ι] {s : EReal} {x w : ι → EReal}
    (hs : IsReal s) (hx : ∀ i, IsReal (x i)) (hw : ∀ i, IsReal (w i)) :
    s * (0 + ∑ i, x i * w i) = 0 + ∑ i, (s * x i) * w i := by
  obtain ⟨r, rfl⟩ := hs
  choose xr hxr using hx
  choose wr hwr using hw
  simp only [hxr, hwr, zero_add]
  simp only [← EReal.coe_mul, ← coe_sum]
  congr 1
  rw [Finset.mul_sum]
  exact Finset.sum_congr rfl fun i _ => by ring

/-- The same without the zero summand. -/
theorem mul_sum {ι : Type} [Fintype ι] {s : EReal} {x w : ι → EReal}
    (hs : IsReal s) (hx : ∀ i, IsReal (x i)) (hw : ∀ i, IsReal (w i)) :
    s * ∑ i, x i * w i = ∑ i, (s * x i) * w i := by
  have h := mul_zero_add_sum hs hx hw
  rwa [zero_add, zero_add] at h

end Cert.RealSum
-- ==== Proof.ColumnMix.lean ====
/-
  One column of the layer, as two arrangements of the same real arithmetic.

  A column of the input has 288 entries: the first 256 are a column `z` of the features, the last 32 a column `π` of
  the mixing weights. With a 256×32 matrix `u` and a vector `a` of 32 entries, entry `r < 256` of the result is

      z r · (Σ_k π k)  −  Σ_k u r k · ((Σ_d u d k · z d) · π k)  +  Σ_k (u r k · a k) · π k,

  and the last 32 entries of the result are `π` unchanged. The fused arrangement computes the two sums over `k` as one,

      z r · (Σ_k π k)  +  Σ_k u r k · ((a k − Σ_d uᵀ k d · z d) · π k).

  The two agree because u·((a − s)·π) = (u·a)·π − u·(s·π) and a sum of differences is the difference of the sums:
  laws of the real numbers, which fail on the extended reals at an infinite entry (∞ − ∞ appears). So the equality is
  stated for columns, matrices and vectors whose entries are all real.
-/
import Mathlib.Data.EReal.Operations
import Mathlib.Algebra.BigOperators.Ring.Finset
import proofs.«121301_j65944927863381_2_alg».proof.Proof.LibRealSum

open scoped BigOperators

namespace Cert.ColumnMix

open Cert.RealSum

/-- Entry `d` of the feature part of a 288-entry column. -/
abbrev zrow (d : Fin 256) : Fin 288 := ⟨d.val, by omega⟩
/-- Entry `k` of the weight part of a 288-entry column. -/
abbrev prow (k : Fin 32) : Fin 288 := ⟨256 + k.val, by omega⟩

/-- The fused arrangement: one sum over `k` of `u r k · ((a k − (uᵀ z) k) · π k)`, the transpose given as its own matrix. -/
noncomputable def fused (z : Fin 288 → EReal) (u : Fin 256 → Fin 32 → EReal) (ut : Fin 32 → Fin 256 → EReal)
    (a : Fin 32 → EReal) (r : Fin 288) : EReal :=
  if h : r.val < 256 then
    z r * (∑ k : Fin 32, z (prow k))
      + ∑ k : Fin 32, u ⟨r.val, h⟩ k * ((a k - ∑ d : Fin 256, ut k d * z (zrow d)) * z (prow k))
  else z r

/-- The three-term arrangement, the sum of the weights carrying the zero it starts from. -/
noncomputable def threeTerm (z : Fin 288 → EReal) (u : Fin 256 → Fin 32 → EReal) (a : Fin 32 → EReal) (r : Fin 288) : EReal :=
  if h : r.val < 256 then
    (z r * (0 + ∑ k : Fin 32, z (prow k))
        - ∑ k : Fin 32, u ⟨r.val, h⟩ k * ((∑ d : Fin 256, u d k * z (zrow d)) * z (prow k)))
      + ∑ k : Fin 32, (u ⟨r.val, h⟩ k * a k) * z (prow k)
  else z r

/-- On real entries the two arrangements are one number. -/
theorem fused_eq_threeTerm {z : Fin 288 → EReal} {u : Fin 256 → Fin 32 → EReal} {a : Fin 32 → EReal}
    (hz : ∀ r, IsReal (z r)) (hu : ∀ d k, IsReal (u d k)) (ha : ∀ k, IsReal (a k)) (r : Fin 288) :
    fused z u (fun k d => u d k) a r = threeTerm z u a r := by
  choose zr hzr using hz
  choose ur hur using hu
  choose ar har using ha
  obtain rfl : z = fun r => (zr r : EReal) := funext hzr
  obtain rfl : u = fun d k => (ur d k : EReal) := funext fun d => funext fun k => hur d k
  obtain rfl : a = fun k => (ar k : EReal) := funext har
  unfold fused threeTerm
  by_cases h : r.val < 256
  · rw [dif_pos h, dif_pos h]
    simp only [zero_add]
    simp only [← EReal.coe_mul, ← coe_sum, ← EReal.coe_sub, ← EReal.coe_add]
    congr 1
    have hs : (∑ k : Fin 32, ur ⟨r.val, h⟩ k * ((ar k - ∑ d : Fin 256, ur d k * zr (zrow d)) * zr (prow k)))
        = (∑ k : Fin 32, ur ⟨r.val, h⟩ k * ar k * zr (prow k))
          - ∑ k : Fin 32, ur ⟨r.val, h⟩ k * ((∑ d : Fin 256, ur d k * zr (zrow d)) * zr (prow k)) := by
      rw [← Finset.sum_sub_distrib]
      exact Finset.sum_congr rfl fun k _ => by ring
    rw [hs]
    ring
  · rw [dif_neg h, dif_neg h]

end Cert.ColumnMix
-- ==== Proof.BlockValue.lean ====
/-
  What one grid point leaves in the output's staging buffer.

  The body stores twice into the 288×4096 output block: rows 0–255 receive the computed value (Payload.lean), rows
  256–287 receive the weight rows of the input block unchanged. Read back, the block is ONE function of the four input
  blocks: at (r, q), the fused arrangement of ColumnMix.lean on column `q` of the input block, with the matrix, its
  transpose as handed to the body, and the column of `a`.
-/
import proofs.«121301_j65944927863381_2_alg».proof.Proof.Gen.KernelIdeal.Frame
import proofs.«121301_j65944927863381_2_alg».proof.Proof.Payload
import proofs.«121301_j65944927863381_2_alg».proof.Proof.ColumnMix
import Idealize.ShloMosaic.Lib.Pipeline.Value
import Idealize.ShloMosaic.Lib.Tactic
import Idealize.ShloMosaic.PureOps.Ideal

noncomputable section

namespace Cert.KernelIdeal.Body

open Cert.KernelIdeal Cert.KernelIdeal.Gen Idealize.ShloMosaic Idealize.ShloMosaic.TcCoe Idealize.SL.Sem
open Idealize.ShloMosaic.ValueIdx Cert.ColumnMix

/-- The output block as a function of the input blocks: column `q` of the input block through the fused arrangement. -/
def blockFn (x0 : Vec Ideal S288x4096 .f32) (x1 : Vec Ideal S256x32 .bf16) (x2 : Vec Ideal S32x256 .bf16)
    (x3 : Vec Ideal S32x1 .f32) : Vec Ideal S288x4096 .f32 :=
  fun y => fused (fun r => x0 (ix2 r (y 1))) (fun d k => x1 (ix2 d k)) (fun k d => x2 (ix2 k d))
    (fun k => x3 (ix2 k (0 : Fin 1))) (y 0)

theorem blockFn_apply (x0 : Vec Ideal S288x4096 .f32) (x1 : Vec Ideal S256x32 .bf16) (x2 : Vec Ideal S32x256 .bf16)
    (x3 : Vec Ideal S32x1 .f32) (r : Fin 288) (q : Fin 4096) :
    blockFn x0 x1 x2 x3 (ix2 r q) = fused (fun r' => x0 (ix2 r' q)) (fun d k => x1 (ix2 d k)) (fun k d => x2 (ix2 k d))
      (fun k => x3 (ix2 k (0 : Fin 1))) r := rfl

theorem hz : (![0, 0] : Fin 2 → Nat) = fun _ => 0 := funext fun a => by fin_cases a <;> rfl

/-- The feature rows' rectangle places (d, q) at row d. -/
theorem emb_feature (inb : ∀ a, (![0, 0] : Fin 2 → Nat) a + (![256, 4096] : Fin 2 → Nat) a ≤ S288x4096.size a)
    (d : Fin 256) (q : Fin 4096) :
    (Rect.unit (s := S288x4096) ![0, 0] ![256, 4096] inb).emb (ix2 d q) = ix2 (zrow d) q := by
  funext a; apply Fin.ext
  match a with
  | ⟨0, _⟩ => show 0 + 1 * d.val = d.val; omega
  | ⟨1, _⟩ => show 0 + 1 * q.val = q.val; omega

/-- The weight rows' rectangle places (k, q) at row 256 + k. -/
theorem emb_weight (inb : ∀ a, (![256, 0] : Fin 2 → Nat) a + (![32, 4096] : Fin 2 → Nat) a ≤ S288x4096.size a)
    (k : Fin 32) (q : Fin 4096) :
    (Rect.unit (s := S288x4096) ![256, 0] ![32, 4096] inb).emb (ix2 k q) = ix2 (prow k) q := by
  funext a; apply Fin.ext
  match a with
  | ⟨0, _⟩ => show 256 + 1 * k.val = 256 + k.val; omega
  | ⟨1, _⟩ => show 0 + 1 * q.val = q.val; omega

/-- The second store's payload, the weight rows of the input block, is the block function on its rectangle. -/
theorem weight_piece (x0 : Vec Ideal S288x4096 .f32) (x1 : Vec Ideal S256x32 .bf16) (x2 : Vec Ideal S32x256 .bf16)
    (x3 : Vec Ideal S32x1 .f32)
    (inb : ∀ a, (![256, 0] : Fin 2 → Nat) a + (![32, 4096] : Fin 2 → Nat) a ≤ S288x4096.size a)
    (x : (⟨2, ![32, 4096]⟩ : Shape).Idx) :
    View.ld x0 (Rect.unit (s := S288x4096) ![256, 0] ![32, 4096] inb) x
      = blockFn x0 x1 x2 x3 ((Rect.unit (s := S288x4096) ![256, 0] ![32, 4096] inb).emb x) := by
  obtain ⟨k, q, rfl⟩ : ∃ (k : Fin 32) (q : Fin 4096), x = ix2 k q := ⟨x 0, x 1, eq_ix2 x⟩
  show x0 ((Rect.unit (s := S288x4096) ![256, 0] ![32, 4096] inb).emb (ix2 k q)) = _
  rw [emb_weight inb k q, blockFn_apply]
  unfold fused
  rw [dif_neg (show ¬ (prow k).val < 256 by show ¬ (256 + k.val < 256); omega)]

/-- The first store's payload, the computed value of the feature and weight rows, is the block function on its
    rectangle. -/
theorem feature_piece (x0 : Vec Ideal S288x4096 .f32) (x1 : Vec Ideal S256x32 .bf16) (x2 : Vec Ideal S32x256 .bf16)
    (x3 : Vec Ideal S32x1 .f32)
    (inb1 : ∀ a, (![0, 0] : Fin 2 → Nat) a + (![256, 4096] : Fin 2 → Nat) a ≤ S288x4096.size a)
    (inb2 : ∀ a, (![256, 0] : Fin 2 → Nat) a + (![32, 4096] : Fin 2 → Nat) a ≤ S288x4096.size a)
    (x : (⟨2, ![256, 4096]⟩ : Shape).Idx) :
    k0_pay1 (F := Ideal) (View.ld x0 (Rect.unit (s := S288x4096) ![0, 0] ![256, 4096] inb1))
        (View.ld x0 (Rect.unit (s := S288x4096) ![256, 0] ![32, 4096] inb2)) x1 x2 x3 x
      = blockFn x0 x1 x2 x3 ((Rect.unit (s := S288x4096) ![0, 0] ![256, 4096] inb1).emb x) := by
  obtain ⟨p, q, rfl⟩ : ∃ (p : Fin 256) (q : Fin 4096), x = ix2 p q := ⟨x 0, x 1, eq_ix2 x⟩
  rw [emb_feature inb1 p q, blockFn_apply, pay_apply]
  unfold fused
  rw [dif_pos (show (zrow p).val < 256 from p.isLt)]
  have e1 : ∀ d : Fin 256, View.ld x0 (Rect.unit (s := S288x4096) ![0, 0] ![256, 4096] inb1) (ix2 d q) = x0 (ix2 (zrow d) q) :=
    fun d => congrArg x0 (emb_feature inb1 d q)
  have e2 : ∀ k : Fin 32, View.ld x0 (Rect.unit (s := S288x4096) ![256, 0] ![32, 4096] inb2) (ix2 k q) = x0 (ix2 (prow k) q) :=
    fun k => congrArg x0 (emb_weight inb2 k q)
  simp only [e1, e2]

/-- What the body leaves in the output's staging buffer is the block function of the four input blocks. -/
theorem out_eq (c : Dev nD) (i : grid0.Coords)
    (a1 : Memref sig .tc .vmem S288x4096 .f32) (h1 : a1.IsWhole) (a2 : Memref sig .tc .vmem S256x32 .bf16) (h2 : a2.IsWhole)
    (a3 : Memref sig .tc .vmem S32x256 .bf16) (h3 : a3.IsWhole) (a4 : Memref sig .tc .vmem S32x1 .f32) (h4 : a4.IsWhole)
    (a5 : Memref sig .tc .vmem S288x4096 .f32) (h5 : a5.IsWhole)
    (x0 : Vec Ideal S288x4096 .f32) (x1 : Vec Ideal S256x32 .bf16) (x2 : Vec Ideal S32x256 .bf16) (x3 : Vec Ideal S32x1 .f32) :
    out0_A_4 (F := Ideal) c i a1 h1 a2 h2 a3 h3 a4 h4 a5 h5 x0 x1 x2 x3 = blockFn x0 x1 x2 x3 := by
  unfold out0_A_4
  rw [View.read_writes_eq_canon _ _ _ (cover0_A_4 c i a1 h1 a2 h2 a3 h3 a4 h4 a5 h5 x0 x1 x2 x3)]
  funext y
  refine View.canon_apply_of_pieces (blockFn x0 x1 x2 x3) _ ?_ y (cover0_A_4 c i a1 h1 a2 h2 a3 h3 a4 h4 a5 h5 x0 x1 x2 x3 y)
  unfold kernelRun0_A
  dsimp only
  sl_unfold_words
  simp only [View.readAt_eq_ld, h1.read_unread, h2.read_unread, h3.read_unread, h4.read_unread,
    View.ld_unit_zero (S := S256x32) hz, View.ld_unit_zero (S := S32x256) hz, View.ld_unit_zero (S := S32x1) hz]
  intro p hp
  rcases List.mem_cons.mp hp with rfl | hp
  · exact fun x => weight_piece x0 x1 x2 x3 _ x
  · rcases List.mem_cons.mp hp with rfl | hp
    · exact fun x => feature_piece x0 x1 x2 x3 _ _ x
    · exact absurd hp List.not_mem_nil

end Cert.KernelIdeal.Body

end
-- ==== Proof.ColumnMixArray.lean ====
/-
  The layer on whole arrays: every column of the 288×262144 input goes through ColumnMix.lean's column function, with
  the 256×32 matrix and the 32-vector read by coordinates. Two arrangements, equal where every entry is real.
-/
import proofs.«121301_j65944927863381_2_alg».proof.Proof.ColumnMix
import Idealize.ShloMosaic.Lib.ValueIdx

noncomputable section

namespace Cert.ColumnMix

open Idealize.ShloMosaic Idealize.ShloMosaic.ValueIdx Cert.RealSum

/-- The fused arrangement on arrays: entry (r, n) is the fused column function on column `n`, the transpose read off
    the matrix itself. -/
def fusedArray (Z : (⟨2, ![288, 262144]⟩ : Shape).Idx → EReal) (U : (⟨2, ![256, 32]⟩ : Shape).Idx → EReal)
    (α : (⟨1, ![32]⟩ : Shape).Idx → EReal) : (⟨2, ![288, 262144]⟩ : Shape).Idx → EReal :=
  fun i => fused (fun r => Z (ix2 r (i 1))) (fun d k => U (ix2 d k)) (fun k d => U (ix2 d k)) (fun k => α (ix1 k)) (i 0)

/-- The three-term arrangement on arrays. -/
def threeTermArray (Z : (⟨2, ![288, 262144]⟩ : Shape).Idx → EReal) (U : (⟨2, ![256, 32]⟩ : Shape).Idx → EReal)
    (α : (⟨1, ![32]⟩ : Shape).Idx → EReal) : (⟨2, ![288, 262144]⟩ : Shape).Idx → EReal :=
  fun i => threeTerm (fun r => Z (ix2 r (i 1))) (fun d k => U (ix2 d k)) (fun k => α (ix1 k)) (i 0)

theorem fusedArray_apply (Z : (⟨2, ![288, 262144]⟩ : Shape).Idx → EReal) (U : (⟨2, ![256, 32]⟩ : Shape).Idx → EReal)
    (α : (⟨1, ![32]⟩ : Shape).Idx → EReal) (r : Fin 288) (n : Fin 262144) :
    fusedArray Z U α (ix2 r n)
      = fused (fun r' => Z (ix2 r' n)) (fun d k => U (ix2 d k)) (fun k d => U (ix2 d k)) (fun k => α (ix1 k)) r := rfl

theorem threeTermArray_apply (Z : (⟨2, ![288, 262144]⟩ : Shape).Idx → EReal) (U : (⟨2, ![256, 32]⟩ : Shape).Idx → EReal)
    (α : (⟨1, ![32]⟩ : Shape).Idx → EReal) (r : Fin 288) (n : Fin 262144) :
    threeTermArray Z U α (ix2 r n)
      = threeTerm (fun r' => Z (ix2 r' n)) (fun d k => U (ix2 d k)) (fun k => α (ix1 k)) r := rfl

/-- On arrays of real entries the two arrangements are one array. -/
theorem fusedArray_eq_threeTermArray {Z : (⟨2, ![288, 262144]⟩ : Shape).Idx → EReal}
    {U : (⟨2, ![256, 32]⟩ : Shape).Idx → EReal} {α : (⟨1, ![32]⟩ : Shape).Idx → EReal}
    (hZ : ∀ i, IsReal (Z i)) (hU : ∀ i, IsReal (U i)) (hα : ∀ i, IsReal (α i)) :
    fusedArray Z U α = threeTermArray Z U α :=
  funext fun i => fused_eq_threeTerm (fun _ => hZ _) (fun _ _ => hU _) (fun _ => hα _) (i 0)

/-- The fused column function depends on its arguments only through their values. -/
theorem fused_congr {z z' : Fin 288 → EReal} {u u' : Fin 256 → Fin 32 → EReal} {ut ut' : Fin 32 → Fin 256 → EReal}
    {a a' : Fin 32 → EReal} {r r' : Fin 288} (hz : ∀ r, z r = z' r) (hu : ∀ d k, u d k = u' d k)
    (hut : ∀ k d, ut k d = ut' k d) (ha : ∀ k, a k = a' k) (hr : r = r') :
    fused z u ut a r = fused z' u' ut' a' r' := by
  obtain rfl : z = z' := funext hz
  obtain rfl : u = u' := funext fun d => funext fun k => hu d k
  obtain rfl : ut = ut' := funext fun k => funext fun d => hut k d
  obtain rfl : a = a' := funext ha
  rw [hr]

end Cert.ColumnMix

end
-- ==== Proof.ArrayValue.lean ====
/-
  The kernel's result array.

  Point `t` of the 64-point grid reads column block `t` of the 288×262144 input (columns 4096·t … 4096·t + 4095), the
  whole 256×32 matrix rounded to the narrower format, the rounded transpose, and the vector stood up as a 32×1 column,
  and writes column block `t` of the output. On the extended reals the rounding is the identity, the transpose read at
  (k, d) is the matrix at (d, k), and the column's entry (k, 0) is the vector's entry k. So what point `t` writes back
  is block `t` of ONE array: the fused arrangement of ColumnMixArray.lean applied to the three arguments. The 64 column
  blocks cover the array (column n lies in block n / 4096), so the array ends holding that function everywhere.
-/
import proofs.«121301_j65944927863381_2_alg».proof.Proof.Gen.KernelIdeal.Value
import proofs.«121301_j65944927863381_2_alg».proof.Proof.BlockValue
import proofs.«121301_j65944927863381_2_alg».proof.Proof.ColumnMixArray
import proofs.«121301_j65944927863381_2_alg».proof.Proof.LibColumnLayout
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Result

open Cert.KernelIdeal Cert.KernelIdeal.Gen Cert.KernelIdeal.Body Idealize.ShloMosaic Idealize.ShloMosaic.TcCoe Idealize.SL.Sem
open Idealize.ShloMosaic.StableHlo Idealize.ShloMosaic.ValueIdx Cert.ColumnMix
open Idealize.ShloMosaic.Pipeline (Dat)

variable (m : (ℓ : Loc nD τ sig) → Buf (Elt Ideal) ℓ) (ρ : Dev nD → PrngReg)

/-- The result: the fused arrangement of the three argument arrays. -/
abbrev result (c : Dev nD) : Buf (Elt Ideal) ((c : Thread nD τ).loc main_v4) :=
  fusedArray (m ((c : Thread nD τ).loc main_arg0)) (m ((c : Thread nD τ).loc main_arg1)) (m ((c : Thread nD τ).loc main_arg2))

/-! ## What the region finds in the arrays the host wrote -/

/-- The matrix rounded to the narrower format is the matrix. -/
theorem found_u (c : Dev nD) : (V m c main_v1 : S256x32.Idx → EReal) = m ((c : Thread nD τ).loc main_arg1) := by
  dsimp only [Gen.V, Gen.hostOps0]; after_results; rfl

/-- The rounded transpose is the transpose. -/
theorem found_ut (c : Dev nD) : (V m c main_v2 : S32x256.Idx → EReal)
    = transpose S32x256 [1, 0] (m ((c : Thread nD τ).loc main_arg1)) transposes_S256x32_S32x256_1_0 := by
  dsimp only [Gen.V, Gen.hostOps0]; after_results; rfl

/-- The column is the vector, re-shaped. -/
theorem found_a (c : Dev nD) : (V m c main_v3 : S32x1.Idx → EReal)
    = shapeCast S32x1 (m ((c : Thread nD τ).loc main_arg2)) shapeCasts_S32_S32x1 := by
  dsimp only [Gen.V, Gen.hostOps0]; after_results; rfl

/-! ## The windows' blocks, read by coordinates -/

/-- The printed index maps over the 64 points: the input's and the output's column blocks move together, every other
    block index is zero, and the column block index stays below 64. -/
theorem idx_facts : ∀ t : Fin cfg0.N, win0_0.index t (0 : Fin 2) = 0
    ∧ win0_0.index t (1 : Fin 2) = win0_4.index t (1 : Fin 2)
    ∧ win0_4.index t (0 : Fin 2) = 0 ∧ win0_4.index t (1 : Fin 2) < 64
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every column block is some point's. -/
theorem idx_onto : ∀ q : Fin 64, ∃ t : Fin cfg0.N, win0_4.index t = ![0, q.val] :=
  (by decide +kernel : ∀ q : Fin 64, ∃ t : Fin grid0.N, win0_4.index t = ![0, q.val])

/-- The input block at (r, q) is the input array at (r, n), `n` the column of the output block's (·, q). -/
theorem in_zpi (c : Dev nD) (t : Fin cfg0.N) (r : Fin 288) (q : Fin 4096) (n : Fin 262144)
    (hn : n.val = win0_4.index t (1 : Fin 2) * 4096 + q.val) :
    iblk m c 0 t (ix2 r q) = m ((c : Thread nD τ).loc main_arg0) (ix2 r n) := by
  obtain ⟨e00, e01, -⟩ := idx_facts t
  show V m c main_arg0 (((cfg0.win 0).blk t).view.emb (ix2 r q)) = _
  rw [V_main_arg0]
  refine congrArg _ (funext fun a => Fin.ext ?_)
  match a with
  | ⟨0, _⟩ => show win0_0.index t (0 : Fin 2) * 288 + 1 * r.val = r.val; rw [e00]; omega
  | ⟨1, _⟩ => show win0_0.index t (1 : Fin 2) * 4096 + 1 * q.val = n.val; rw [e01, hn]; omega

/-- The matrix block is the matrix. -/
theorem in_u (c : Dev nD) (t : Fin cfg0.N) (d : Fin 256) (k : Fin 32) :
    iblk m c 1 t (ix2 d k) = m ((c : Thread nD τ).loc main_arg1) (ix2 d k) := by
  obtain ⟨-, -, -, -, e10, e11, -⟩ := idx_facts t
  show (V m c main_v1 : S256x32.Idx → EReal) (((cfg0.win 1).blk t).view.emb (ix2 d k)) = _
  rw [found_u]
  refine congrArg _ (funext fun a => Fin.ext ?_)
  match a with
  | ⟨0, _⟩ => show win0_1.index t (0 : Fin 2) * 256 + 1 * d.val = d.val; rw [e10]; omega
  | ⟨1, _⟩ => show win0_1.index t (1 : Fin 2) * 32 + 1 * k.val = k.val; rw [e11]; omega

/-- The transpose block at (k, d) is the matrix at (d, k). -/
theorem in_ut (c : Dev nD) (t : Fin cfg0.N) (k : Fin 32) (d : Fin 256) :
    iblk m c 2 t (ix2 k d) = m ((c : Thread nD τ).loc main_arg1) (ix2 d k) := by
  obtain ⟨-, -, -, -, -, -, e20, e21, -⟩ := idx_facts t
  show (V m c main_v2 : S32x256.Idx → EReal) (((cfg0.win 2).blk t).view.emb (ix2 k d)) = _
  rw [found_ut]
  refine Eq.trans (congrArg _ (funext fun a => Fin.ext ?_)) (transpose_ix2_apply _ transposes_S256x32_S32x256_1_0 k d)
  match a with
  | ⟨0, _⟩ => show win0_2.index t (0 : Fin 2) * 32 + 1 * k.val = k.val; rw [e20]; omega
  | ⟨1, _⟩ => show win0_2.index t (1 : Fin 2) * 256 + 1 * d.val = d.val; rw [e21]; omega

/-- The column block at (k, 0) is the vector at k. -/
theorem in_a (c : Dev nD) (t : Fin cfg0.N) (k : Fin 32) :
    iblk m c 3 t (ix2 k (0 : Fin 1)) = m ((c : Thread nD τ).loc main_arg2) (ix1 k) := by
  obtain ⟨-, -, -, -, -, -, -, -, e30, e31⟩ := idx_facts t
  show (V m c main_v3 : S32x1.Idx → EReal) (((cfg0.win 3).blk t).view.emb (ix2 k (0 : Fin 1))) = _
  rw [found_a]
  refine Eq.trans (congrArg _ (funext fun a => Fin.ext ?_)) (Cert.ColumnLayout.shapeCast_a_a1_apply _ shapeCasts_S32_S32x1 k (0 : Fin 1))
  match a with
  | ⟨0, _⟩ => show win0_3.index t (0 : Fin 2) * 32 + 1 * k.val = k.val; rw [e30]; omega
  | ⟨1, _⟩ => show win0_3.index t (1 : Fin 2) * 1 + 1 * 0 = 0; rw [e31]

/-! ## What a point writes back -/

/-- The block function of point `t`'s input blocks, at an index of the block, is the result at the index of the
    array the output's block places it at. -/
theorem block_eq (c : Dev nD) (t : Fin cfg0.N) (y : S288x4096.Idx) :
    blockFn (iblk m c 0 t) (iblk m c 1 t) (iblk m c 2 t) (iblk m c 3 t) y
      = result m c (((cfg0.win 4).blk t).view.emb y) := by
  obtain ⟨r, q, rfl⟩ : ∃ (r : Fin 288) (q : Fin 4096), y = ix2 r q := ⟨y 0, y 1, eq_ix2 y⟩
  obtain ⟨-, -, e40, e41, -⟩ := idx_facts t
  have hemb : ((cfg0.win 4).blk t).view.emb (ix2 r q)
      = ix2 r (⟨win0_4.index t (1 : Fin 2) * 4096 + q.val, by have := q.isLt; omega⟩ : Fin 262144) :=
    funext fun a => Fin.ext (by
      match a with
      | ⟨0, _⟩ => show win0_4.index t (0 : Fin 2) * 288 + 1 * r.val = r.val; rw [e40]; omega
      | ⟨1, _⟩ => show win0_4.index t (1 : Fin 2) * 4096 + 1 * q.val = win0_4.index t (1 : Fin 2) * 4096 + q.val; omega)
  rw [hemb, blockFn_apply]
  show _ = fusedArray _ _ _ (ix2 r _)
  rw [fusedArray_apply]
  exact fused_congr (fun r' => in_zpi m c t r' q _ rfl) (fun d k => in_u m c t d k) (fun k d => in_ut m c t k d)
    (fun k => in_a m c t k) rfl

/-- What point `t` writes back is block `t` of the result. -/
theorem flushed_eq (c : Dev nD) (t : Fin cfg0.N) :
    (dats m 0 c).flushed 4 t = ((cfg0.win 4).blk t).view.read (Elt Ideal) (result m c) := by
  refine (Value.flushed4_A m c t).trans ?_
  refine (congrArg ((cfg0.win 4).cut (grid0.coords t)) (out_eq c (grid0.coords t) (ms0_0 t) (hs0_0 t) (ms0_1 t) (hs0_1 t)
    (ms0_2 t) (hs0_2 t) (ms0_3 t) (hs0_3 t) (ms0_4 t) (hs0_4 t) (iblk m c 0 t) (iblk m c 1 t) (iblk m c 2 t) (iblk m c 3 t))).trans ?_
  funext j
  exact block_eq m c t j

/-! ## The array after the run -/

/-- An index of the array is in point `t`'s block iff each coordinate is in the block's range on its axis. -/
theorem mem_blk (t : Fin cfg0.N) (i : S288x262144.Idx) :
    i ∈ ((cfg0.win 4).blk t).view.set ↔ ∀ a : Fin 2, win0_4.index t a * S288x4096.size a ≤ (i a).val
      ∧ (i a).val < win0_4.index t a * S288x4096.size a + S288x4096.size a := by
  show i ∈ ((View.whole main_v4).slice (win0_4.rect t)).set ↔ _
  rw [View.set_slice_whole, Rect.mem_set_unit]
  exact Iff.rfl

/-- Column n lies in the block of the point whose column block index is n / 4096. -/
theorem cover (i : S288x262144.Idx) :
    ∃ t : Fin cfg0.N, (cfg0.win 4).flush t = true ∧ i ∈ ((cfg0.win 4).blk t).view.set := by
  have hi0 : (i 0).val < 288 := (i 0).isLt
  have hi1 : (i 1).val < 262144 := (i 1).isLt
  obtain ⟨t, ht⟩ := idx_onto ⟨(i 1).val / 4096, by omega⟩
  have q0 : win0_4.index t (0 : Fin 2) = 0 := congrFun ht 0
  have q1 : win0_4.index t (1 : Fin 2) = (i 1).val / 4096 := congrFun ht 1
  refine ⟨t, flush0_4 t, ?_⟩
  rw [mem_blk]
  intro a
  match a with
  | ⟨0, _⟩ => show win0_4.index t (0 : Fin 2) * 288 ≤ (i 0).val ∧ (i 0).val < win0_4.index t (0 : Fin 2) * 288 + 288; omega
  | ⟨1, _⟩ => show win0_4.index t (1 : Fin 2) * 4096 ≤ (i 1).val ∧ (i 1).val < win0_4.index t (1 : Fin 2) * 4096 + 4096; omega

/-- The array ends holding the result. -/
theorem final (c : Dev nD) : (dats m 0 c).arrAt 4 cfg0.N = result m c :=
  (dats m 0 c).arrAt_eq_of_cover 4 (result m c) (fun t _ => flushed_eq m c t) cover

/-- The run, read: the result array at the fused arrangement of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefValue.lean ====
/-
  The reference's result array, read index by index.

  The reference slices the 288×262144 input into its 256 feature rows `z` and 32 weight rows `π`, forms
  `z · (0 + Σ_k π_k)`, subtracts the product of the matrix with `(uᵀ z) · π`, adds the product of the matrix scaled
  column-wise by the vector with `π`, and stacks the weight rows under the result. On the extended reals each host
  product is the plain sum over the contracted axis and the host's sum starts from the zero it is given; the slices,
  the transpose and the broadcasts only re-index. So entry (r, n) is the three-term arrangement of ColumnMix.lean on
  column `n`.
-/
import proofs.«121301_j65944927863381_2_alg».proof.Proof.Gen.ReferenceIdeal.Read
import proofs.«121301_j65944927863381_2_alg».proof.Proof.ColumnMixArray
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.ColumnMix

variable (x0 : (⟨S288x262144, .f32⟩ : BufTy).Contents (Elt Ideal)) (x1 : (⟨S256x32, .f32⟩ : BufTy).Contents (Elt Ideal))
  (x2 : (⟨S32, .f32⟩ : BufTy).Contents (Elt Ideal))

/-- The feature slice at (d, n) is the input at row d. -/
theorem feat (d : Fin 256) (n : Fin 262144) : val_main_v0 (F := Ideal) x0 (ix2 d n) = x0 (ix2 (zrow d) n) :=
  (val_main_v0_apply x0 _).trans (congrArg x0 (funext fun a => Fin.ext (by match a with | ⟨0, _⟩ => rfl | ⟨1, _⟩ => rfl)))

/-- The weight slice at (k, n) is the input at row 256 + k. -/
theorem wt (k : Fin 32) (n : Fin 262144) : val_main_v1 (F := Ideal) x0 (ix2 k n) = x0 (ix2 (prow k) n) :=
  (val_main_v1_apply x0 _).trans (congrArg x0 (funext fun a => Fin.ext (by match a with | ⟨0, _⟩ => rfl | ⟨1, _⟩ => rfl)))

/-- The transpose at (k, d) is the matrix at (d, k). -/
theorem tr (k : Fin 32) (d : Fin 256) : val_main_v2 (F := Ideal) x1 (ix2 k d) = x1 (ix2 d k) :=
  (val_main_v2_apply x1 _).trans (congrArg x1 (funext fun a => Fin.ext (by match a with | ⟨0, _⟩ => rfl | ⟨1, _⟩ => rfl)))

/-- (uᵀ z)(k, n) = Σ_d u(d, k) · z(d, n). -/
theorem utz (k : Fin 32) (n : Fin 262144) :
    val_main_v3 (F := Ideal) x0 x1 (ix2 k n) = ∑ d : Fin 256, x1 (ix2 d k) * x0 (ix2 (zrow d) n) := by
  rw [val_main_v3_apply]
  refine Finset.sum_congr rfl fun d _ => ?_
  have el : lidx_main_v3 (ix2 k n) d = ix2 k d := funext fun a => Fin.ext (by match a with | ⟨0, _⟩ => rfl | ⟨1, _⟩ => rfl)
  have er : ridx_main_v3 (ix2 k n) d = ix2 d n := funext fun a => Fin.ext (by match a with | ⟨0, _⟩ => rfl | ⟨1, _⟩ => rfl)
  rw [el, er, tr, feat]

/-- The sum of the weights of column n, from the zero it starts at, spread over the rows. -/
theorem wsum (r : Fin 256) (n : Fin 262144) :
    val_main_v6 (F := Ideal) x0 (ix2 r n) = 0 + ∑ k : Fin 32, x0 (ix2 (prow k) n) := by
  rw [val_main_v6_apply, val_main_v5_apply, val_main_v4_apply, val_main_cst_apply, Ideal.ofBits_def, Ideal.ofBits_zero_f32]
  refine congrArg (0 + ·) (Finset.sum_congr rfl fun k _ => ?_)
  have e : idx_main_v4 (idx_main_v5 (idx_main_v6 (ix2 r n))) k = ix2 k n :=
    funext fun a => Fin.ext (by match a with | ⟨0, _⟩ => rfl | ⟨1, _⟩ => rfl)
  rw [e, wt]

/-- The subtracted term at (r, n): Σ_k u(r, k) · ((uᵀ z)(k, n) · π(k, n)). -/
theorem proj (r : Fin 256) (n : Fin 262144) :
    val_main_v9 (F := Ideal) x0 x1 (ix2 r n)
      = ∑ k : Fin 32, x1 (ix2 r k) * ((∑ d : Fin 256, x1 (ix2 d k) * x0 (ix2 (zrow d) n)) * x0 (ix2 (prow k) n)) := by
  rw [val_main_v9_apply]
  refine Finset.sum_congr rfl fun k _ => ?_
  have el : lidx_main_v9 (ix2 r n) k = ix2 r k := funext fun a => Fin.ext (by match a with | ⟨0, _⟩ => rfl | ⟨1, _⟩ => rfl)
  have er : ridx_main_v9 (ix2 r n) k = ix2 k n := funext fun a => Fin.ext (by match a with | ⟨0, _⟩ => rfl | ⟨1, _⟩ => rfl)
  rw [el, er, val_main_v8_apply, Ideal.mulf_def, utz, wt]

/-- The added term at (r, n): Σ_k (u(r, k) · a(k)) · π(k, n). -/
theorem shift (r : Fin 256) (n : Fin 262144) :
    val_main_v14 (F := Ideal) x0 x1 x2 (ix2 r n) = ∑ k : Fin 32, (x1 (ix2 r k) * x2 (ix1 k)) * x0 (ix2 (prow k) n) := by
  rw [val_main_v14_apply]
  refine Finset.sum_congr rfl fun k _ => ?_
  have el : lidx_main_v14 (ix2 r n) k = ix2 r k := funext fun a => Fin.ext (by match a with | ⟨0, _⟩ => rfl | ⟨1, _⟩ => rfl)
  have er : ridx_main_v14 (ix2 r n) k = ix2 k n := funext fun a => Fin.ext (by match a with | ⟨0, _⟩ => rfl | ⟨1, _⟩ => rfl)
  have ea : idx_main_v11 (idx_main_v12 (ix2 r k)) = ix1 k := funext fun a => Fin.ext (by match a with | ⟨0, _⟩ => rfl)
  rw [el, er, val_main_v13_apply, Ideal.mulf_def, val_main_v12_apply, val_main_v11_apply, ea, wt]

/-- The computed rows at (r, n), r < 256. -/
theorem feature_rows (r : Fin 288) (h : r.val < 256) (n : Fin 262144) :
    val_main_v15 (F := Ideal) x0 x1 x2 (ix2 (⟨r.val, h⟩ : Fin 256) n)
      = (x0 (ix2 r n) * (0 + ∑ k : Fin 32, x0 (ix2 (prow k) n))
          - ∑ k : Fin 32, x1 (ix2 (⟨r.val, h⟩ : Fin 256) k)
              * ((∑ d : Fin 256, x1 (ix2 d k) * x0 (ix2 (zrow d) n)) * x0 (ix2 (prow k) n)))
        + ∑ k : Fin 32, (x1 (ix2 (⟨r.val, h⟩ : Fin 256) k) * x2 (ix1 k)) * x0 (ix2 (prow k) n) := by
  rw [val_main_v15_apply, val_main_v10_apply, val_main_v7_apply, Ideal.addf_def, Ideal.subf_def, Ideal.mulf_def,
    feat, wsum, proj, shift]

/-- The reference's result is the three-term arrangement of its arguments. -/
theorem result_eq : val_main_v18 (F := Ideal) x0 x1 x2 = threeTermArray x0 x1 x2 := by
  funext i
  obtain ⟨r, n, rfl⟩ : ∃ (r : Fin 288) (n : Fin 262144), i = ix2 r n := ⟨i 0, i 1, eq_ix2 i⟩
  rw [threeTermArray_apply]
  unfold val_main_v18 threeTerm
  by_cases h : r.val < 256
  · rw [dif_pos h]
    refine (concatenate_pair_apply_left (t := S288x262144) (s₁ := S256x262144) (s₂ := S32x262144) (0 : Fin 2) _ _
      concatenates_S256x262144_S32x262144_S288x262144_d0 (ix2 r n) rfl
      (ix2 (⟨r.val, h⟩ : Fin 256) n) (fun b => by match b with | ⟨0, _⟩ => rfl | ⟨1, _⟩ => rfl)).trans ?_
    exact feature_rows x0 x1 x2 r h n
  · rw [dif_neg h]
    have hr : r.val - 256 < 32 := by have := r.isLt; omega
    refine (concatenate_pair_apply_right (t := S288x262144) (s₁ := S256x262144) (s₂ := S32x262144) (0 : Fin 2) _ _
      concatenates_S256x262144_S32x262144_S288x262144_d0 (ix2 r n) rfl rfl
      (ix2 (⟨r.val - 256, hr⟩ : Fin 32) n) (fun b hb => by match b with | ⟨0, _⟩ => exact absurd rfl hb | ⟨1, _⟩ => rfl)
      (by show r.val - 256 + 256 = r.val; omega)).trans ?_
    refine (wt x0 _ n).trans (congrArg x0 ?_)
    exact congrArg (fun a : Fin 288 => ix2 a n) (Fin.ext (by show 256 + (r.val - 256) = r.val; omega))

end Cert.ReferenceIdeal.RefValue

end
-- ==== Proof.Finite.lean ====
/-
  From the precondition to real entries.

  The precondition says, of each of the three arguments, that every entry's absolute value is below +∞, and takes the
  conjunction. An extended real whose absolute value max(x, −x) is below +∞ is neither infinity: it is a real number.
-/
import proofs.«121301_j65944927863381_2_alg».proof.Pre_finite_inputs
import proofs.«121301_j65944927863381_2_alg».proof.Proof.Gen.Pre_finite_inputs
import proofs.«121301_j65944927863381_2_alg».proof.Proof.LibRealSum
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic Cert.RealSum

instance : Subsingleton S_.Idx := ⟨fun a b => funext fun d => d.elim0⟩

/-- The word 0x7F800000 is +∞. -/
theorem ofBits_inf : Ideal.ofBits .f32 0x7F800000#32 = (⊤ : EReal) := by simp [Ideal.ofBits, Ideal.ieee]

/-- An extended real whose absolute value is below +∞ is a real. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One argument's conjunct: if the `all` of `|x| < +∞` over the array is one, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) :=
  isReal_of_abs_lt (x i) (Host.reduce_andi_all _ _ hr hu ValueIdx.ix0 e i)

/-- Under the precondition every entry of every argument is real. -/
theorem reals (Z : FVec Ideal S288x262144 .f32) (U : FVec Ideal S256x32 .f32) (α : FVec Ideal S32 .f32)
    (h : fn (F := Ideal) Z U α = fun _ => 1#1) :
    (∀ i, IsReal (Z i)) ∧ (∀ i, IsReal (U i)) ∧ (∀ i, IsReal (α i)) := by
  have h0 := congrFun h ValueIdx.ix0
  dsimp only [fn] at h0
  obtain ⟨h12, h3⟩ := IntOp.andi_eq_one.1 h0
  obtain ⟨h1, h2⟩ := IntOp.andi_eq_one.1 h12
  exact ⟨all_real Z _ _ _ h1, all_real U _ _ _ h2, all_real α _ _ _ h3⟩

end Cert.Pre_finite_inputs.Finite

end
-- ==== Proof.lean ====
/-
  The layer Z ↦ Z · Σπ − U (UᵀZ ∘ π) + (U ∘ a) π on a 288×262144 array whose first 256 rows are the features Z and
  whose last 32 rows are the mixing weights π, stacked over π unchanged: a kernel that walks 64 column blocks of 4096
  columns and fuses the two matrix products into one, U ((a − UᵀZ) ∘ π), against a reference that computes the three
  terms separately.

  Every output column depends on the matching input column only, so both programs are one column function applied
  column by column (ColumnMix.lean: the fused and the three-term arrangements; ColumnMixArray.lean: the same on whole
  arrays). The kernel's array ends at the fused arrangement of its arguments (Payload.lean: the computed store at an
  index; BlockValue.lean: the two stores of a point read back as one block; ArrayValue.lean: the blocks are the
  restrictions of one array, and they cover it). The reference's array is the three-term arrangement (RefValue.lean).
  The two arrangements differ by distributing U's entry over a difference and splitting a sum of differences, laws that
  need real entries: the precondition supplies them (Finite.lean). The idealization rewrote nothing, so there is
  nothing to preserve beyond the program's own text.
-/
import proofs.«121301_j65944927863381_2_alg».proof.Defs
import proofs.«121301_j65944927863381_2_alg».proof.Proof.Gen.Kernel
import proofs.«121301_j65944927863381_2_alg».proof.Proof.Gen.Kernel.Skeleton
import proofs.«121301_j65944927863381_2_alg».proof.Proof.Gen.Kernel.Launch
import proofs.«121301_j65944927863381_2_alg».proof.Proof.Gen.Kernel.Points
import proofs.«121301_j65944927863381_2_alg».proof.Proof.Gen.Kernel.Frame
import proofs.«121301_j65944927863381_2_alg».proof.Proof.Gen.KernelIdeal
import proofs.«121301_j65944927863381_2_alg».proof.Proof.Gen.KernelIdeal.Skeleton
import proofs.«121301_j65944927863381_2_alg».proof.Proof.Gen.KernelIdeal.Launch
import proofs.«121301_j65944927863381_2_alg».proof.Proof.Gen.KernelIdeal.Points
import proofs.«121301_j65944927863381_2_alg».proof.Proof.Gen.KernelIdeal.Frame
import proofs.«121301_j65944927863381_2_alg».proof.Proof.Gen.ReferenceIdeal
import proofs.«121301_j65944927863381_2_alg».proof.Proof.Gen.Pre_finite_inputs
import proofs.«121301_j65944927863381_2_alg».proof.Proof.Gen.KernelIdeal.Value
import proofs.«121301_j65944927863381_2_alg».proof.Proof.Gen.ReferenceIdeal.Run
import proofs.«121301_j65944927863381_2_alg».proof.Proof.Gen.ReferenceIdeal.Read
import proofs.«121301_j65944927863381_2_alg».proof.Proof.ArrayValue
import proofs.«121301_j65944927863381_2_alg».proof.Proof.RefValue
import proofs.«121301_j65944927863381_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On real arguments the kernel's fused arrangement and the reference's three-term arrangement are one array. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hZ, hU, hα⟩ := Cert.Pre_finite_inputs.Finite.reals _ _ _ (hpre c)
  rw [Cert.ReferenceIdeal.Read.val_main_v18_eq, Cert.ReferenceIdeal.RefValue.result_eq, (hagree c).1, (hagree c).2.1,
    (hagree c).2.2]
  exact (Cert.ColumnMix.fusedArray_eq_threeTermArray hZ hU hα).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
